-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x768 : Shape := ⟨3, ![2048, 64, 768]⟩
abbrev S768 : Shape := ⟨1, ![768]⟩
abbrev S64x768 : Shape := ⟨2, ![64, 768]⟩
abbrev S64 : Shape := ⟨1, ![64]⟩
abbrev S_ : Shape := ⟨0, ![]⟩

class Facts : Prop where
  bcast_S_S2048x64x768 : S_.BroadcastsInDim S2048x64x768 (![] : Fin 0 → Fin S2048x64x768.rank)
  reducesTo_S2048x64x768_S_d0_1_2 : S2048x64x768.ReducesTo [0, 1, 2] S_
  h_S_ : 0 < S_.numel
  bcast_S_S768 : S_.BroadcastsInDim S768 (![] : Fin 0 → Fin S768.rank)
  reducesTo_S768_S_d0 : S768.ReducesTo [0] S_
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S2048x64x768 .f32) (main_arg1 : FVec F S768 .f32) (main_arg2 : FVec F S768 .f32) (main_arg3 : FVec F S64x768 .f32) (main_arg4 : FVec F S64 .f32) : IVec S_ 1 :=
  let main_v0 : FVec F S2048x64x768 .f32 := Host.absf main_arg0
  let main_cst : FVec F S_ .f32 := constant S_ .f32 0x7F800000#32
  let main_v1 : FVec F S2048x64x768 .f32 := broadcastInDim S2048x64x768 ![] bcast_S_S2048x64x768 main_cst
  let main_v2 : IVec S2048x64x768 1 := cmpf .olt main_v0 main_v1
  let main_c : IVec S_ 1 := constantI S_ 1 1#1
  let main_v3 : IVec S_ 1 := (fun x v => Host.reduce IntOp.andi x v reducesTo_S2048x64x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_arg4 main_v13 main_v16
-- ==== Kernel.lean ====
abbrev S2048x64x768 : Shape := ⟨3, ![2048, 64, 768]⟩
abbrev S768 : Shape := ⟨1, ![768]⟩
abbrev S64x768 : Shape := ⟨2, ![64, 768]⟩
abbrev S64 : Shape := ⟨1, ![64]⟩
abbrev S768x64 : Shape := ⟨2, ![768, 64]⟩
abbrev S2048x4096 : Shape := ⟨2, ![2048, 4096]⟩
abbrev S32x64x768 : Shape := ⟨3, ![32, 64, 768]⟩
abbrev S32x4096 : Shape := ⟨2, ![32, 4096]⟩
abbrev S32x64 : Shape := ⟨2, ![32, 64]⟩
abbrev S32x64x1 : Shape := ⟨3, ![32, 64, 1]⟩
abbrev S1x1x768 : Shape := ⟨3, ![1, 1, 768]⟩
abbrev S2048x768 : Shape := ⟨2, ![2048, 768]⟩
abbrev S2048x64 : Shape := ⟨2, ![2048, 64]⟩
abbrev S32x64x64 : Shape := ⟨3, ![32, 64, 64]⟩
abbrev S1x1x64 : Shape := ⟨3, ![1, 1, 64]⟩
abbrev S2048x64x64 : Shape := ⟨3, ![2048, 64, 64]⟩
abbrev S2048x8x8x4x4x4 : Shape := ⟨6, ![2048, 8, 8, 4, 4, 4]⟩
abbrev S2048x4x8x4x8x4 : Shape := ⟨6, ![2048, 4, 8, 4, 8, 4]⟩
abbrev S2048x4x32x32 : Shape := ⟨4, ![2048, 4, 32, 32]⟩

abbrev nBuf : Space → Nat
  | .hbm => 12
  | .vmem => 8
  | .smem => 0
  | _ => 0

abbrev bufTy : (tb : Table) → Fin (tcTables nBuf tb) → BufTy
  | .hbm, ⟨0, _⟩ => ⟨S2048x64x768, .f32⟩
  | .hbm, ⟨1, _⟩ => ⟨S768, .f32⟩
  | .hbm, ⟨2, _⟩ => ⟨S768, .f32⟩
  | .hbm, ⟨3, _⟩ => ⟨S64x768, .f32⟩
  | .hbm, ⟨4, _⟩ => ⟨S64, .f32⟩
  | .hbm, ⟨5, _⟩ => ⟨S768x64, .f32⟩
  | .hbm, ⟨6, _⟩ => ⟨S768x64, .bf16⟩
  | .hbm, ⟨7, _⟩ => ⟨S2048x4096, .f32⟩
  | .hbm, ⟨8, _⟩ => ⟨S2048x64x64, .f32⟩
  | .hbm, ⟨9, _⟩ => ⟨S2048x8x8x4x4x4, .f32⟩
  | .hbm, ⟨10, _⟩ => ⟨S2048x4x8x4x8x4, .f32⟩
  | .hbm, ⟨11, _⟩ => ⟨S2048x4x32x32, .f32⟩
  | .local _ .vmem, ⟨0, _⟩ => ⟨S32x64x768, .f32⟩
  | .local _ .vmem, ⟨1, _⟩ => ⟨S32x64x768, .f32⟩
  | .local _ .vmem, ⟨2, _⟩ => ⟨S768, .f32⟩
  | .local _ .vmem, ⟨3, _⟩ => ⟨S768, .f32⟩
  | .local _ .vmem, ⟨4, _⟩ => ⟨S768x64, .bf16⟩
  | .local _ .vmem, ⟨5, _⟩ => ⟨S64, .f32⟩
  | .local _ .vmem, ⟨6, _⟩ => ⟨S32x4096, .f32⟩
  | .local _ .vmem, ⟨7, _⟩ => ⟨S32x4096, .f32⟩
  | _, _ => ⟨S2048x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x768_S768x64_1_0 : S64x768.Transposes [1, 0] S768x64
  bitsLt_bf16_f32 : FTy.bits .bf16 < FTy.bits .f32
  inb_S32x64x768_S32x64x768_0_0_0 : ∀ a, (![0, 0, 0] : Fin 3 → Nat) a + S32x64x768.size a ≤ S32x64x768.size a
  h_S32x64x768 : 0 < S32x64x768.numel
  reduces_S32x64x768_S32x64 : S32x64x768.Reduces [2] S32x64
  shapeCasts_S32x64_S32x64x1 : S32x64.ShapeCasts S32x64x1
  broadcasts_S32x64x1_S32x64x768 : S32x64x1.Broadcasts S32x64x768
  inb_S768_S768_0 : ∀ a, (![0] : Fin 1 → Nat) a + S768.size a ≤ S768.size a
  h_S768 : 0 < S768.numel
  shapeCasts_S768_S1x1x768 : S768.ShapeCasts S1x1x768
  broadcasts_S1x1x768_S32x64x768 : S1x1x768.Broadcasts S32x64x768
  shapeCasts_S32x64x768_S2048x768 : S32x64x768.ShapeCasts S2048x768
  inb_S768x64_S768x64_0_0 : ∀ a, (![0, 0] : Fin 2 → Nat) a + S768x64.size a ≤ S768x64.size a
  h_S768x64 : 0 < S768x64.numel
  shapeCasts_S768x64_S768x64 : S768x64.ShapeCasts S768x64
  shapeCasts_S2048x64_S32x64x64 : S2048x64.ShapeCasts S32x64x64
  inb_S64_S64_0 : ∀ a, (![0] : Fin 1 → Nat) a + S64.size a ≤ S64.size a
  h_S64 : 0 < S64.numel
  shapeCasts_S64_S1x1x64 : S64.ShapeCasts S1x1x64
  broadcasts_S1x1x64_S32x64x64 : S1x1x64.Broadcasts S32x64x64
  shapeCasts_S32x64x64_S32x4096 : S32x64x64.ShapeCasts S32x4096
  inb_S32x4096_S32x4096_0_0 : ∀ a, (![0, 0] : Fin 2 → Nat) a + S32x4096.size a ≤ S32x4096.size a
  h_S32x4096 : 0 < S32x4096.numel
  shapeCasts_S2048x4096_S2048x64x64 : S2048x4096.ShapeCasts S2048x64x64
  shapeCasts_S2048x64x64_S2048x8x8x4x4x4 : S2048x64x64.ShapeCasts S2048x8x8x4x4x4
  transposes_S2048x8x8x4x4x4_S2048x4x8x4x8x4_0_3_1_4_2_5 : S2048x8x8x4x4x4.Transposes [0, 3, 1, 4, 2, 5] S2048x4x8x4x8x4
  shapeCasts_S2048x4x8x4x8x4_S2048x4x32x32 : S2048x4x8x4x8x4.ShapeCasts S2048x4x32x32
  dot_S2048x768_S768x64_S2048x64_1_0_0_1_n_n_wf : DotDims.WF S2048x768 S768x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x768.size a ≤ S2048x64x768.size a
  hwx0_0 : ∀ i : grid0.Coords, EltTy.bits .f32 = 32 ∨ (Rect.block (s := S2048x64x768) S32x64x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768.size a ≤ S768.size a
  hwx0_1 : ∀ i : grid0.Coords, EltTy.bits .f32 = 32 ∨ (Rect.block (s := S768) S768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x64.size a ≤ S768x64.size a
  hwx0_3 : ∀ i : grid0.Coords, EltTy.bits .bf16 = 32 ∨ (Rect.block (s := S768x64) S768x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x4096.size a ≤ S2048x4096.size a
  hwx0_5 : ∀ i : grid0.Coords, EltTy.bits .f32 = 32 ∨ (Rect.block (s := S2048x4096) S32x4096.size (cc0_transform_5 i) (hinb0_5 i)).WholeWords (EltTy.packing .f32)

variable [Facts₀]

def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf

abbrev win0_0 : Pipeline.Window sig grid0 :=
  Pipeline.Window.ofSpec (Memref.whole main_arg0) S32x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S32x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x64x768 : Shape := ⟨3, ![2048, 64, 768]⟩
abbrev S768 : Shape := ⟨1, ![768]⟩
abbrev S64x768 : Shape := ⟨2, ![64, 768]⟩
abbrev S64 : Shape := ⟨1, ![64]⟩
abbrev S_ : Shape := ⟨0, ![]⟩
abbrev S2048x64 : Shape := ⟨2, ![2048, 64]⟩
abbrev S2048x64x1 : Shape := ⟨3, ![2048, 64, 1]⟩
abbrev S1x1x768 : Shape := ⟨3, ![1, 1, 768]⟩
abbrev S2048x64x64 : Shape := ⟨3, ![2048, 64, 64]⟩
abbrev S1x1x64 : Shape := ⟨3, ![1, 1, 64]⟩
abbrev S2048x8x8x4x4x4 : Shape := ⟨6, ![2048, 8, 8, 4, 4, 4]⟩
abbrev S2048x4x8x4x8x4 : Shape := ⟨6, ![2048, 4, 8, 4, 8, 4]⟩
abbrev S2048x4x32x32 : Shape := ⟨4, ![2048, 4, 32, 32]⟩

abbrev nBuf : Space → Nat
  | .hbm => 50
  | .vmem => 0
  | .smem => 0
  | _ => 0

abbrev bufTy : (tb : Table) → Fin (tcTables nBuf tb) → BufTy
  | .hbm, ⟨0, _⟩ => ⟨S2048x64x768, .f32⟩
  | .hbm, ⟨1, _⟩ => ⟨S768, .f32⟩
  | .hbm, ⟨2, _⟩ => ⟨S768, .f32⟩
  | .hbm, ⟨3, _⟩ => ⟨S64x768, .f32⟩
  | .hbm, ⟨4, _⟩ => ⟨S64, .f32⟩
  | .hbm, ⟨5, _⟩ => ⟨S_, .f32⟩
  | .hbm, ⟨6, _⟩ => ⟨S2048x64, .f32⟩
  | .hbm, ⟨7, _⟩ => ⟨S2048x64x1, .f32⟩
  | .hbm, ⟨8, _⟩ => ⟨S_, .f32⟩
  | .hbm, ⟨9, _⟩ => ⟨S2048x64x1, .f32⟩
  | .hbm, ⟨10, _⟩ => ⟨S2048x64x1, .f32⟩
  | .hbm, ⟨11, _⟩ => ⟨S2048x64x768, .f32⟩
  | .hbm, ⟨12, _⟩ => ⟨S2048x64x768, .f32⟩
  | .hbm, ⟨13, _⟩ => ⟨S2048x64x768, .f32⟩
  | .hbm, ⟨14, _⟩ => ⟨S_, .f32⟩
  | .hbm, ⟨15, _⟩ => ⟨S2048x64, .f32⟩
  | .hbm, ⟨16, _⟩ => ⟨S2048x64x1, .f32⟩
  | .hbm, ⟨17, _⟩ => ⟨S_, .f32⟩
  | .hbm, ⟨18, _⟩ => ⟨S2048x64x1, .f32⟩
  | .hbm, ⟨19, _⟩ => ⟨S2048x64x1, .f32⟩
  | .hbm, ⟨20, _⟩ => ⟨S2048x64x768, .f32⟩
  | .hbm, ⟨21, _⟩ => ⟨S2048x64x768, .f32⟩
  | .hbm, ⟨22, _⟩ => ⟨S_, .f32⟩
  | .hbm, ⟨23, _⟩ => ⟨S2048x64x1, .f32⟩
  | .hbm, ⟨24, _⟩ => ⟨S2048x64x1, .f32⟩
  | .hbm, ⟨25, _⟩ => ⟨S2048x64x1, .f32⟩
  | .hbm, ⟨26, _⟩ => ⟨S2048x64x768, .f32⟩
  | .hbm, ⟨27, _⟩ => ⟨S2048x64x768, .f32⟩
  | .hbm, ⟨28, _⟩ => ⟨S1x1x768, .f32⟩
  | .hbm, ⟨29, _⟩ => ⟨S2048x64x768, .f32⟩
  | .hbm, ⟨30, _⟩ => ⟨S2048x64x768, .f32⟩
  | .hbm, ⟨31, _⟩ => ⟨S1x1x768, .f32⟩
  | .hbm, ⟨32, _⟩ => ⟨S2048x64x768, .f32⟩
  | .hbm, ⟨33, _⟩ => ⟨S2048x64x768, .f32⟩
  | .hbm, ⟨34, _⟩ => ⟨S2048x64x64, .f32⟩
  | .hbm, ⟨35, _⟩ => ⟨S1x1x64, .f32⟩
  | .hbm, ⟨36, _⟩ => ⟨S2048x64x64, .f32⟩
  | .hbm, ⟨37, _⟩ => ⟨S2048x64x64, .f32⟩
  | .hbm, ⟨38, _⟩ => ⟨S2048x64x64, .f32⟩
  | .hbm, ⟨39, _⟩ => ⟨S2048x64x64, .f32⟩
  | .hbm, ⟨40, _⟩ => ⟨S_, .f32⟩
  | .hbm, ⟨41, _⟩ => ⟨S2048x64x64, .f32⟩
  | .hbm, ⟨42, _⟩ => ⟨S2048x64x64, .f32⟩
  | .hbm, ⟨43, _⟩ => ⟨S_, .f32⟩
  | .hbm, ⟨44, _⟩ => ⟨S2048x64x64, .f32⟩
  | .hbm, ⟨45, _⟩ => ⟨S2048x64x64, .f32⟩
  | .hbm, ⟨46, _⟩ => ⟨S2048x64x64, .f32⟩
  | .hbm, ⟨47, _⟩ => ⟨S2048x8x8x4x4x4, .f32⟩
  | .hbm, ⟨48, _⟩ => ⟨S2048x4x8x4x8x4, .f32⟩
  | .hbm, ⟨49, _⟩ => ⟨S2048x4x32x32, .f32⟩
  | _, _ => ⟨S2048x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  reducesTo_S2048x64x768_S2048x64_d2 : S2048x64x768.ReducesTo [2] S2048x64
  h_S_ : 0 < S_.numel
  bcast_S2048x64_S2048x64x1_0_1 : S2048x64.BroadcastsInDim S2048x64x1 (![0, 1] : Fin 2 → Fin S2048x64x1.rank)
  bcast_S_S2048x64x1 : S_.BroadcastsInDim S2048x64x1 (![] : Fin 0 → Fin S2048x64x1.rank)
  bcast_S2048x64x1_S2048x64x768_0_1_2 : S2048x64x1.BroadcastsInDim S2048x64x768 (![0, 1, 2] : Fin 3 → Fin S2048x64x768.rank)
  bcast_S768_S1x1x768_2 : S768.BroadcastsInDim S1x1x768 (![2] : Fin 1 → Fin S1x1x768.rank)
  bcast_S1x1x768_S2048x64x768_0_1_2 : S1x1x768.BroadcastsInDim S2048x64x768 (![0, 1, 2] : Fin 3 → Fin S2048x64x768.rank)
  bcast_S64_S1x1x64_2 : S64.BroadcastsInDim S1x1x64 (![2] : Fin 1 → Fin S1x1x64.rank)
  bcast_S1x1x64_S2048x64x64_0_1_2 : S1x1x64.BroadcastsInDim S2048x64x64 (![0, 1, 2] : Fin 3 → Fin S2048x64x64.rank)
  bcast_S_S2048x64x64 : S_.BroadcastsInDim S2048x64x64 (![] : Fin 0 → Fin S2048x64x64.rank)
  shapeCasts_S2048x64x64_S2048x8x8x4x4x4 : S2048x64x64.ShapeCasts S2048x8x8x4x4x4
  transposes_S2048x8x8x4x4x4_S2048x4x8x4x8x4_0_3_1_4_2_5 : S2048x8x8x4x4x4.Transposes [0, 3, 1, 4, 2, 5] S2048x4x8x4x8x4
  shapeCasts_S2048x4x8x4x8x4_S2048x4x32x32 : S2048x4x8x4x8x4.ShapeCasts S2048x4x32x32
  dot_S2048x64x768_S64x768_S2048x64x64_2_1_01_0_n_n_wf : DotDims.WF S2048x64x768 S64x768 S2048x64x64 [2] [1] [0, 1] [0] [] []

variable [Facts₀]

def dot_S2048x64x768_S64x768_S2048x64x64_2_1_01_0_n_n : DotDims S2048x64x768 S64x768 S2048x64x64 where
  lhsContracting := [2]
  rhsContracting := [1]
  lhsNonContracting := [0, 1]
  rhsNonContracting := [0]
  lhsBatch := []
  rhsBatch := []
  wf := dot_S2048x64x768_S64x768_S2048x64x64_2_1_01_0_n_n_wf

class Facts : Prop extends Facts₀ where

variable [Facts]
-- ==== Proof.KernelBlocks.lean ====
/-
  The kernel's side, from blocks to arrays (first half): which rows a grid point's blocks are.

  The launch walks 64 grid points.  At point t the input block of the big array is its rows
  32·t … 32·t + 31 (all 64 × 768 entries of each), the two 768-vectors, the [768, 64] weight matrix and the
  64-vector are fetched whole, and the output block is rows 32·t … 32·t + 31 of the [2048, 4096] result.
  The weight matrix the launch sees is the transpose of the argument W (a host step before the launch,
  followed by a change of float format, which is the identity on the extended reals): its entry (k, o) is
  W (o, k).
-/
import proofs.«102197_j38053410243068_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- The block index of every window at every grid point: the big input and the output move one block of
    32 rows per point, every other window stays at its one whole block. -/
theorem idx_facts : ∀ t : Fin cfg0.N, win0_0.index t (0 : Fin 3) = t.val
    ∧ win0_0.index t (1 : Fin 3) = 0 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The big input's block at point `t`: entry (i, c, k) of the block is entry (32·t + i, c, k) of the array. -/
theorem blk0_apply (c : Dev nD) (t : Fin cfg0.N) (y : S32x64x768.Idx) (J : S2048x64x768.Idx)
    (h0 : (J 0).val = t.val * 32 + (y 0).val) (h1 : (J 1).val = (y 1).val) (h2 : (J 2).val = (y 2).val) :
    iblk m c 0 t y = V m c main_arg0 J := by
  obtain ⟨e0, e1, e2, -⟩ := idx_facts t
  show V m c main_arg0 (((cfg0.win 0).blk t).view.emb y) = V m c main_arg0 J
  refine congrArg (V m c main_arg0) (funext fun a => Fin.ext ?_)
  match a with
  | ⟨0, _⟩ => show win0_0.index t (0 : Fin 3) * 32 + 1 * (y 0).val = (J 0).val; omega
  | ⟨1, _⟩ => show win0_0.index t (1 : Fin 3) * 64 + 1 * (y 1).val = (J 1).val; omega
  | ⟨2, _⟩ => show win0_0.index t (2 : Fin 3) * 768 + 1 * (y 2).val = (J 2).val; omega

/-- The gain vector's one block is the whole vector. -/
theorem blk1_apply (c : Dev nD) (t : Fin cfg0.N) (y : S768.Idx) : iblk m c 1 t y = V m c main_arg1 y := by
  obtain ⟨-, -, -, e3, -⟩ := idx_facts t
  show V m c main_arg1 (((cfg0.win 1).blk t).view.emb y) = V m c main_arg1 y
  refine congrArg (V m c main_arg1) (funext fun a => Fin.ext ?_)
  match a with
  | ⟨0, _⟩ => show win0_1.index t (0 : Fin 1) * 768 + 1 * (y 0).val = (y 0).val; omega

/-- The offset vector's one block is the whole vector. -/
theorem blk2_apply (c : Dev nD) (t : Fin cfg0.N) (y : S768.Idx) : iblk m c 2 t y = V m c main_arg2 y := by
  obtain ⟨-, -, -, -, e4, -⟩ := idx_facts t
  show V m c main_arg2 (((cfg0.win 2).blk t).view.emb y) = V m c main_arg2 y
  refine congrArg (V m c main_arg2) (funext fun a => Fin.ext ?_)
  match a with
  | ⟨0, _⟩ => show win0_2.index t (0 : Fin 1) * 768 + 1 * (y 0).val = (y 0).val; omega

/-- The weight matrix's one block is the whole [768, 64] matrix the launch sees. -/
theorem blk3_apply (c : Dev nD) (t : Fin cfg0.N) (y : S768x64.Idx) : iblk m c 3 t y = V m c main_v1 y := by
  obtain ⟨-, -, -, -, -, e5, e6, -⟩ := idx_facts t
  show V m c main_v1 (((cfg0.win 3).blk t).view.emb y) = V m c main_v1 y
  refine congrArg (V m c main_v1) (funext fun a => Fin.ext ?_)
  match a with
  | ⟨0, _⟩ => show win0_3.index t (0 : Fin 2) * 768 + 1 * (y 0).val = (y 0).val; omega
  | ⟨1, _⟩ => show win0_3.index t (1 : Fin 2) * 64 + 1 * (y 1).val = (y 1).val; omega

/-- The bias vector's one block is the whole vector. -/
theorem blk4_apply (c : Dev nD) (t : Fin cfg0.N) (y : S64.Idx) : iblk m c 4 t y = V m c main_arg4 y := by
  obtain ⟨-, -, -, -, -, -, -, e7, -⟩ := idx_facts t
  show V m c main_arg4 (((cfg0.win 4).blk t).view.emb y) = V m c main_arg4 y
  refine congrArg (V m c main_arg4) (funext fun a => Fin.ext ?_)
  match a with
  | ⟨0, _⟩ => show win0_4.index t (0 : Fin 1) * 64 + 1 * (y 0).val = (y 0).val; omega

/-- The weight matrix the launch sees is the argument transposed: entry (k, o) is W (o, k). -/
theorem wt_apply (c : Dev nD) (k : Fin 768) (o : Fin 64) :
    V m c main_v1 (ix2 k o) = m ((c : Thread nD τ).loc main_arg3) (ix2 o k) := by
  have e : (V m c main_v1 : S768x64.Idx → EReal)
      = truncf (F := Ideal) .bf16 (transpose S768x64 [1, 0] (m ((c : Thread nD τ).loc main_arg3)) transposes_S64x768_S768x64_1_0) bitsLt_bf16_f32 := by
    show StableHlo.after hostOps0 (fun b => m (c, b)) (Proc.devRef .tc main_v1) = _
    after_results
  refine (congrFun e (ix2 k o)).trans ?_
  exact transpose_ix2_apply (m ((c : Thread nD τ).loc main_arg3)) transposes_S64x768_S768x64_1_0 k o

end Cert.KernelIdeal.ArrayValue

end
-- ==== Proof.Spec.lean ====
/-
  The table both programs compute, as one function of the five argument arrays.

  Every row of 768 numbers is normalised: its mean is subtracted, the centred row is scaled by the inverse
  square root of (the mean of its squares plus a small guard), then multiplied entry by entry by a gain vector
  and shifted by an offset vector.  The normalised row is paired with each of the 64 rows of a weight matrix
  (a sum of 768 products), a bias is added, and the result y is replaced by y · sigmoid y.  Entry (r, c, o) of
  the table uses row (r, c) of the input and row o of the weights.

  Everything is stated over the extended reals; the two literals (768 and the guard) stay the binary words
  both programs print, so neither is ever evaluated.
-/
import Idealize.ShloMosaic.Lib.ValueIdx
import Idealize.ShloMosaic.PureOps.Ideal.Laws

noncomputable section

open scoped BigOperators

namespace Cert.LnSilu

open Idealize.ShloMosaic Idealize.ShloMosaic.ValueIdx

/-- The row length, 768, as the extended real its f32 word denotes. -/
def width : EReal := Ideal.ofBits .f32 0x44400000#32

/-- The guard added to the variance, as the extended real its f32 word denotes. -/
def guard : EReal := Ideal.ofBits .f32 0x3727C5AC#32

/-- The mean of a row: its sum divided by the row length. -/
def rowMean (r : Fin 768 → EReal) : EReal := Ideal.div (∑ k, r k) width

/-- A row with its mean subtracted. -/
def centred (r : Fin 768 → EReal) (k : Fin 768) : EReal := r k - rowMean r

/-- The inverse square root of the guarded variance of a row. -/
def spread (r : Fin 768 → EReal) : EReal :=
  Ideal.rsqrt (rowMean (fun k => centred r k * centred r k) + guard)

/-- The normalised row: centred, scaled, times the gain `g`, plus the offset `s`. -/
def normed (r g s : Fin 768 → EReal) (k : Fin 768) : EReal := centred r k * spread r * g k + s k

/-- y · sigmoid y, the sigmoid being 1 / (1 + e^(-y)). -/
def silu (y : EReal) : EReal := y * Ideal.logistic y

/-- One entry: the normalised row against one weight row `w`, plus the bias `β`, through `silu`. -/
def cell (r g s w : Fin 768 → EReal) (β : EReal) : EReal := silu ((∑ k, normed r g s k * w k) + β)

/-- Entry (r, c, o) of the table. -/
def tableAt (x : (⟨3, ![2048, 64, 768]⟩ : Shape).Idx → EReal) (g s : (⟨1, ![768]⟩ : Shape).Idx → EReal)
    (W : (⟨2, ![64, 768]⟩ : Shape).Idx → EReal) (b : (⟨1, ![64]⟩ : Shape).Idx → EReal)
    (r : Fin 2048) (c o : Fin 64) : EReal :=
  cell (fun k => x (ix3 r c k)) (fun k => g (ix1 k)) (fun k => s (ix1 k)) (fun k => W (ix2 o k)) (b (ix1 o))

/-- The table as an array of shape [2048, 64, 64]. -/
def table (x : (⟨3, ![2048, 64, 768]⟩ : Shape).Idx → EReal) (g s : (⟨1, ![768]⟩ : Shape).Idx → EReal)
    (W : (⟨2, ![64, 768]⟩ : Shape).Idx → EReal) (b : (⟨1, ![64]⟩ : Shape).Idx → EReal) :
    (⟨3, ![2048, 64, 64]⟩ : Shape).Idx → EReal :=
  fun i => tableAt x g s W b (i 0) (i 1) (i 2)

theorem table_ix3 (x : (⟨3, ![2048, 64, 768]⟩ : Shape).Idx → EReal) (g s : (⟨1, ![768]⟩ : Shape).Idx → EReal)
    (W : (⟨2, ![64, 768]⟩ : Shape).Idx → EReal) (b : (⟨1, ![64]⟩ : Shape).Idx → EReal)
    (r : Fin 2048) (c o : Fin 64) : table x g s W b (ix3 r c o) = tableAt x g s W b r c o := rfl

/-- The f32 word of 1.0 denotes 1. -/
theorem ofBits_one : Ideal.ofBits .f32 0x3F800000#32 = (1 : EReal) := by
  simp [Ideal.ofBits, Ideal.ieee, -EReal.coe_mul]
  norm_num

/-- The sigmoid spelt with a negation, an exponential, a sum with 1 and a quotient is the sigmoid. -/
theorem logistic_spelt (y : EReal) : Ideal.div 1 (1 + Ideal.exp (-y)) = Ideal.logistic y := rfl

end Cert.LnSilu

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.LibMergeRows.lean ====
/-
  The leading two axes of a rank-3 array merged into one, and split again, read at an index.

  An `[n, a, b]` array and an `[n·a, b]` matrix hold the same elements in row-major order: row `p·a + i` of the
  matrix is the slab entry `(p, i, ·)`.  Both directions of the cast are stated with the merged row number `P` given
  as a variable together with the equation `P = p·a + i`, so that a caller can supply whatever spelling of the row
  number its own arithmetic produces.
-/
import Idealize.ShloMosaic.Lib.Pipeline.Value
import Idealize.ShloMosaic.Lib.ValueIdx

noncomputable section

namespace Cert.MergeRows

open Idealize.ShloMosaic Idealize.ShloMosaic.ValueIdx

variable {α : Type}

/-- `[n, a, b]` cast to `[N, b]`: entry `(P, j)` with `P = p·a + i` is the operand's entry `(p, i, j)`. -/
theorem shapeCast_merge_apply {n a b N : ℕ} (x : (⟨3, ![n, a, b]⟩ : Shape).Idx → α)
    (h : (⟨3, ![n, a, b]⟩ : Shape).ShapeCasts ⟨2, ![N, b]⟩) (p : Fin n) (i : Fin a) (j : Fin b) (P : Fin N)
    (hP : P.val = p.val * a + i.val) : shapeCast ⟨2, ![N, b]⟩ x h (ix2 P j) = x (ix3 p i j) :=
  shapeCast_apply x h _ _ (by
    rw [Shape.rowMajor_val_three, Shape.rowMajor_val_two]
    show (p.val * a + i.val) * b + j.val = P.val * b + j.val
    rw [hP])

/-- `[N, b]` cast to `[n, a, b]`: entry `(p, i, j)` is the operand's entry `(P, j)` with `P = p·a + i`. -/
theorem shapeCast_split_apply {n a b N : ℕ} (x : (⟨2, ![N, b]⟩ : Shape).Idx → α)
    (h : (⟨2, ![N, b]⟩ : Shape).ShapeCasts ⟨3, ![n, a, b]⟩) (p : Fin n) (i : Fin a) (j : Fin b) (P : Fin N)
    (hP : P.val = p.val * a + i.val) : shapeCast ⟨3, ![n, a, b]⟩ x h (ix3 p i j) = x (ix2 P j) :=
  shapeCast_apply x h _ _ (by
    rw [Shape.rowMajor_val_two, Shape.rowMajor_val_three]
    show P.val * b + j.val = (p.val * a + i.val) * b + j.val
    rw [hP])

end Cert.MergeRows

end
-- ==== Proof.PayloadAt.lean ====
/-
  The value the body stores, read at one entry.

  The body holds a block of 32 × 64 rows of 768 numbers.  Each row has its mean subtracted (the row sum over the
  word of 768), is scaled by the inverse square root of the mean of its squared centred entries plus a guard word,
  multiplied entry by entry by a gain vector and shifted by an offset vector.  The 2048 normalised rows (row
  i·64 + c is the slab (i, c, ·)) are multiplied into a [768, 64] weight block from a zero accumulator, a bias is
  added per column, and each result y becomes y · sigmoid y.  The [32, 64, 64] result is laid out as [32, 4096],
  column c·64 + o holding entry (c, o).

  Entry (i, c·64 + o) therefore depends on row (i, c) of the block and column o of the weights only, and is the
  specification's cell of those two.  The proof names the stages, reads each one at an index (the sums by one law
  for a single-axis sum, the re-layouts by equal row-major positions, the repeats by their source coordinate; the
  entrywise operations read through by unfolding), and composes the readings.
-/
import proofs.«102197_j38053410243068_2_alg».proof.Proof.Gen.KernelIdeal.Skeleton
import proofs.«102197_j38053410243068_2_alg».proof.Proof.Spec
import proofs.«102197_j38053410243068_2_alg».proof.Proof.LibPlainMatmul
import proofs.«102197_j38053410243068_2_alg».proof.Proof.LibMergeRows
import Idealize.ShloMosaic.Lib.ValueIdx
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## The re-indexing steps read at one index -/

/-- The sum over the last axis of a [32, 64, 768] block, read at (i, c): the sum over k of the entries (i, c, k). -/
theorem laneSum_apply (v : FVec Ideal S32x64x768 .f32) (h : S32x64x768.Reduces [2] S32x64) (hφ : FKind.Formats .f32)
    (hacc : (0x00000000#32 : BitVec 32) = 0x00000000#32) (i : Fin 32) (c : Fin 64) :
    multiReduction .add [2] S32x64 v 0x00000000#32 h hφ hacc (ix2 i c) = ∑ k : Fin 768, v (ix3 i c k) := by
  refine (Ideal.multiReduction_add_single v 0x00000000#32 h hφ hacc (ix2 i c)).trans ?_
  refine Finset.sum_congr rfl fun k _ => congrArg v ?_
  funext a
  match a with
  | ⟨0, _⟩ => rfl
  | ⟨1, _⟩ => rfl
  | ⟨2, _⟩ => rfl

/-- A [32, 64] array viewed as [32, 64, 1]: entry (i, c, 0) is entry (i, c), both at row-major position i·64 + c. -/
theorem keepAxis_apply {α : Type} (u : S32x64.Idx → α) (h : S32x64.ShapeCasts S32x64x1) (i : Fin 32) (c : Fin 64) (z : Fin 1) :
    shapeCast S32x64x1 u h (ix3 i c z) = u (ix2 i c) :=
  shapeCast_apply u h _ _ (by
    rw [Shape.rowMajor_val_two, Shape.rowMajor_val_three]
    show i.val * 64 + c.val = (i.val * 64 + c.val) * 1 + z.val
    have := z.isLt
    omega)

/-- A [32, 64, 1] array repeated along its unit axis: entry (i, c, k) of the [32, 64, 768] result is entry (i, c, 0). -/
theorem repeatLane_apply {α : Type} (u : S32x64x1.Idx → α) (h : S32x64x1.Broadcasts S32x64x768) (i : Fin 32) (c : Fin 64) (k : Fin 768) :
    broadcastTo S32x64x768 u h (ix3 i c k) = u (ix3 i c 0) :=
  broadcastTo_apply u h _ _ (fun a => by
    match a with
    | ⟨0, _⟩ =>
      show i.val = if (32 : Nat) = 1 then 0 else i.val
      rw [if_neg (by decide)]
    | ⟨1, _⟩ =>
      show c.val = if (64 : Nat) = 1 then 0 else c.val
      rw [if_neg (by decide)]
    | ⟨2, _⟩ =>
      show (0 : Nat) = if (1 : Nat) = 1 then 0 else k.val
      rw [if_pos rfl])

/-- A vector of 768 entries viewed as [1, 1, 768] and repeated over the two leading axes: entry (i, c, k) is entry k. -/
theorem repeatRow768_apply {α : Type} (g : S768.Idx → α) (h₁ : S768.ShapeCasts S1x1x768) (h₂ : S1x1x768.Broadcasts S32x64x768)
    (i : Fin 32) (c : Fin 64) (k : Fin 768) :
    broadcastTo S32x64x768 (shapeCast S1x1x768 g h₁) h₂ (ix3 i c k) = g (ix1 k) := by
  refine (broadcastTo_apply (shapeCast S1x1x768 g h₁) h₂ _ (ix3 0 0 k) (fun a => ?_)).trans ?_
  · match a with
    | ⟨0, _⟩ =>
      show (0 : Nat) = if (1 : Nat) = 1 then 0 else i.val
      rw [if_pos rfl]
    | ⟨1, _⟩ =>
      show (0 : Nat) = if (1 : Nat) = 1 then 0 else c.val
      rw [if_pos rfl]
    | ⟨2, _⟩ =>
      show k.val = if (768 : Nat) = 1 then 0 else k.val
      rw [if_neg (by decide)]
  · exact shapeCast_apply g h₁ _ _ (by
      rw [Shape.rowMajor_val_one, Shape.rowMajor_val_three]
      show k.val = (0 * 1 + 0) * 768 + k.val
      omega)

/-- A vector of 64 entries viewed as [1, 1, 64] and repeated over the two leading axes: entry (i, c, o) is entry o. -/
theorem repeatRow64_apply {α : Type} (g : S64.Idx → α) (h₁ : S64.ShapeCasts S1x1x64) (h₂ : S1x1x64.Broadcasts S32x64x64)
    (i : Fin 32) (c o : Fin 64) :
    broadcastTo S32x64x64 (shapeCast S1x1x64 g h₁) h₂ (ix3 i c o) = g (ix1 o) := by
  refine (broadcastTo_apply (shapeCast S1x1x64 g h₁) h₂ _ (ix3 0 0 o) (fun a => ?_)).trans ?_
  · match a with
    | ⟨0, _⟩ =>
      show (0 : Nat) = if (1 : Nat) = 1 then 0 else i.val
      rw [if_pos rfl]
    | ⟨1, _⟩ =>
      show (0 : Nat) = if (1 : Nat) = 1 then 0 else c.val
      rw [if_pos rfl]
    | ⟨2, _⟩ =>
      show o.val = if (64 : Nat) = 1 then 0 else o.val
      rw [if_neg (by decide)]
  · exact shapeCast_apply g h₁ _ _ (by
      rw [Shape.rowMajor_val_one, Shape.rowMajor_val_three]
      show o.val = (0 * 1 + 0) * 64 + o.val
      omega)

/-- A [32, 64, 64] array viewed as [32, 4096]: entry (i, J) with J = c·64 + o is entry (i, c, o), both at row-major
    position (i·64 + c)·64 + o. -/
theorem mergeCols_apply {α : Type} (u : S32x64x64.Idx → α) (h : S32x64x64.ShapeCasts S32x4096) (i : Fin 32) (c o : Fin 64)
    (J : Fin 4096) (hJ : J.val = c.val * 64 + o.val) :
    shapeCast S32x4096 u h (ix2 i J) = u (ix3 i c o) :=
  shapeCast_apply u h _ _ (by
    rw [Shape.rowMajor_val_three, Shape.rowMajor_val_two]
    show (i.val * 64 + c.val) * 64 + o.val = i.val * 4096 + J.val
    rw [hJ]
    omega)

/-! ## The body's intermediate blocks, named

Each definition below is one stage of the stored value, written with the same operations in the same order, so that
the stored value is their composition by unfolding. -/

/-- Row means kept on a unit axis: the lane sum of a block, viewed as [32, 64, 1], divided by the row-length word. -/
def meanBlk (v : FVec Ideal S32x64x768 .f32) : FVec Ideal S32x64x1 .f32 :=
  divf (shapeCast S32x64x1
      (multiReduction .add [2] S32x64 v 0x00000000#32 reduces_S32x64x768_S32x64 (.inl rfl) rfl) shapeCasts_S32x64_S32x64x1)
    (broadcast S32x64x1 (Scalar.ofBits .f32 0x44400000#32))

/-- The block with every row's mean subtracted. -/
def cenBlk (v : FVec Ideal S32x64x768 .f32) : FVec Ideal S32x64x768 .f32 :=
  subf v (broadcastTo S32x64x768 (meanBlk v) broadcasts_S32x64x1_S32x64x768)

/-- Per row, the inverse square root of (the mean of the squared centred entries plus the guard word). -/
def scaleBlk (v : FVec Ideal S32x64x768 .f32) : FVec Ideal S32x64x1 .f32 :=
  rsqrt (addf (meanBlk (mulf (cenBlk v) (cenBlk v))) (broadcast S32x64x1 (Scalar.ofBits .f32 0x3727C5AC#32)))

/-- The normalised block: centred, scaled per row, times the gain vector, plus the offset vector. -/
def normBlk (v : FVec Ideal S32x64x768 .f32) (g s : FVec Ideal S768 .f32) : FVec Ideal S32x64x768 .f32 :=
  addf
    (mulf (mulf (cenBlk v) (broadcastTo S32x64x768 (scaleBlk v) broadcasts_S32x64x1_S32x64x768))
      (broadcastTo S32x64x768 (shapeCast S1x1x768 g shapeCasts_S768_S1x1x768) broadcasts_S1x1x768_S32x64x768))
    (broadcastTo S32x64x768 (shapeCast S1x1x768 s shapeCasts_S768_S1x1x768) broadcasts_S1x1x768_S32x64x768)

/-- The normalised block as 2048 rows of 768, against the [768, 64] weights, accumulated from zero. -/
def prodBlk (v : FVec Ideal S32x64x768 .f32) (g s : FVec Ideal S768 .f32) (w : FVec Ideal S768x64 .bf16) :
    FVec Ideal S2048x64 .f32 :=
  matmul dot_S2048x768_S768x64_S2048x64_1_0_0_1_n_n none
    (truncf .bf16 (shapeCast S2048x768 (normBlk v g s) shapeCasts_S32x64x768_S2048x768) bitsLt_bf16_f32)
    (shapeCast S768x64 w shapeCasts_S768x64_S768x64) (constant S2048x64 .f32 0x00000000#32)

/-- The product viewed as [32, 64, 64], plus the bias vector. -/
def preBlk (v : FVec Ideal S32x64x768 .f32) (g s : FVec Ideal S768 .f32) (w : FVec Ideal S768x64 .bf16)
    (b : FVec Ideal S64 .f32) : FVec Ideal S32x64x64 .f32 :=
  addf (shapeCast S32x64x64 (prodBlk v g s w) shapeCasts_S2048x64_S32x64x64)
    (broadcastTo S32x64x64 (shapeCast S1x1x64 b shapeCasts_S64_S1x1x64) broadcasts_S1x1x64_S32x64x64)

/-- The stored value is y · sigmoid y of the last block, viewed as [32, 4096]. -/
theorem pay_eq (x0 : FVec Ideal S32x64x768 .f32) (v17 v21 : FVec Ideal S768 .f32) (v27 : FVec Ideal S768x64 .bf16)
    (v31 : FVec Ideal S64 .f32) :
    k0_pay1 (F := Ideal) x0 v17 v21 v27 v31
      = shapeCast S32x4096 (mulf (preBlk x0 v17 v21 v27 v31) (logistic (preBlk x0 v17 v21 v27 v31)))
          shapeCasts_S32x64x64_S32x4096 := rfl

/-! ## Each block read at one index -/

/-- The kept mean of a block at (i, c, 0): the mean of row (i, c). -/
theorem meanBlk_at (v : FVec Ideal S32x64x768 .f32) (i : Fin 32) (c : Fin 64) (z : Fin 1) :
    meanBlk v (ix3 i c z) = Cert.LnSilu.rowMean (fun k => v (ix3 i c k)) :=
  congrArg (Ideal.div · Cert.LnSilu.width)
    ((keepAxis_apply _ shapeCasts_S32x64_S32x64x1 i c z).trans
      (laneSum_apply v reduces_S32x64x768_S32x64 (.inl rfl) rfl i c))

/-- The centred block at (i, c, k): entry k of row (i, c) minus that row's mean. -/
theorem cenBlk_at (v : FVec Ideal S32x64x768 .f32) (i : Fin 32) (c : Fin 64) (k : Fin 768) :
    cenBlk v (ix3 i c k) = Cert.LnSilu.centred (fun k => v (ix3 i c k)) k :=
  congrArg (v (ix3 i c k) - ·)
    ((repeatLane_apply (meanBlk v) broadcasts_S32x64x1_S32x64x768 i c k).trans (meanBlk_at v i c 0))

/-- The per-row scale at (i, c, 0): the spread of row (i, c). The squares' block at (i, c, k) is the square of the
    centred entry, so its row mean is the mean of those squares. -/
theorem scaleBlk_at (v : FVec Ideal S32x64x768 .f32) (i : Fin 32) (c : Fin 64) (z : Fin 1) :
    scaleBlk v (ix3 i c z) = Cert.LnSilu.spread (fun k => v (ix3 i c k)) := by
  refine congrArg (fun m => Ideal.rsqrt (m + Cert.LnSilu.guard)) ?_
  refine (meanBlk_at (mulf (cenBlk v) (cenBlk v)) i c z).trans ?_
  refine congrArg Cert.LnSilu.rowMean (funext fun k => ?_)
  exact congrArg₂ (· * ·) (cenBlk_at v i c k) (cenBlk_at v i c k)

/-- The normalised block at (i, c, k): entry k of the normalised row (i, c). -/
theorem normBlk_at (v : FVec Ideal S32x64x768 .f32) (g s : FVec Ideal S768 .f32) (i : Fin 32) (c : Fin 64) (k : Fin 768) :
    normBlk v g s (ix3 i c k)
      = Cert.LnSilu.normed (fun k => v (ix3 i c k)) (fun k => g (ix1 k)) (fun k => s (ix1 k)) k := by
  refine congrArg₂ (· + ·) (congrArg₂ (· * ·) (congrArg₂ (· * ·) (cenBlk_at v i c k) ?_) ?_) ?_
  · exact (repeatLane_apply (scaleBlk v) broadcasts_S32x64x1_S32x64x768 i c k).trans (scaleBlk_at v i c 0)
  · exact repeatRow768_apply g shapeCasts_S768_S1x1x768 broadcasts_S1x1x768_S32x64x768 i c k
  · exact repeatRow768_apply s shapeCasts_S768_S1x1x768 broadcasts_S1x1x768_S32x64x768 i c k

/-- The product at (P, o), P = i·64 + c: the normalised row (i, c) against column o of the weights. Row P of the
    left operand is the slab (i, c, ·) of the normalised block; the format change and the weights' cast to their own
    shape leave the entries as they are. -/
theorem prodBlk_at (v : FVec Ideal S32x64x768 .f32) (g s : FVec Ideal S768 .f32) (w : FVec Ideal S768x64 .bf16)
    (i : Fin 32) (c o : Fin 64) (P : Fin 2048) (hP : P.val = i.val * 64 + c.val) :
    prodBlk v g s w (ix2 P o)
      = ∑ k : Fin 768, Cert.LnSilu.normed (fun k => v (ix3 i c k)) (fun k => g (ix1 k)) (fun k => s (ix1 k)) k * w (ix2 k o) := by
  refine (Cert.PlainMatmul.matmul_zero_apply (M := 2048) (K := 768) (N := 64) none
    (truncf .bf16 (shapeCast S2048x768 (normBlk v g s) shapeCasts_S32x64x768_S2048x768) bitsLt_bf16_f32)
    (shapeCast S768x64 w shapeCasts_S768x64_S768x64) P o).trans ?_
  refine Finset.sum_congr rfl fun k _ => congrArg₂ (· * ·) ?_ ?_
  · exact (Cert.MergeRows.shapeCast_merge_apply (normBlk v g s) shapeCasts_S32x64x768_S2048x768 i c k P hP).trans
      (normBlk_at v g s i c k)
  · exact congrFun (shapeCast_self w shapeCasts_S768x64_S768x64) (ix2 k o)

/-- The pre-activation at (i, c, o): the normalised row (i, c) against column o of the weights, plus bias o. -/
theorem preBlk_at (v : FVec Ideal S32x64x768 .f32) (g s : FVec Ideal S768 .f32) (w : FVec Ideal S768x64 .bf16)
    (b : FVec Ideal S64 .f32) (i : Fin 32) (c o : Fin 64) :
    preBlk v g s w b (ix3 i c o)
      = (∑ k : Fin 768, Cert.LnSilu.normed (fun k => v (ix3 i c k)) (fun k => g (ix1 k)) (fun k => s (ix1 k)) k * w (ix2 k o))
          + b (ix1 o) := by
  have hlt : i.val * 64 + c.val < 2048 := by have := i.isLt; have := c.isLt; omega
  refine congrArg₂ (· + ·) ?_ ?_
  · exact (Cert.MergeRows.shapeCast_split_apply (prodBlk v g s w) shapeCasts_S2048x64_S32x64x64 i c o
      ⟨i.val * 64 + c.val, hlt⟩ rfl).trans (prodBlk_at v g s w i c o ⟨i.val * 64 + c.val, hlt⟩ rfl)
  · exact repeatRow64_apply b shapeCasts_S64_S1x1x64 broadcasts_S1x1x64_S32x64x64 i c o

/-! ## The stored value at one index -/

/-- Entry (i, J) of the stored value, J = c·64 + o, is the table's cell of row (i, c) of the input block and column o of
    the weights. -/
theorem pay_at (x0 : FVec Ideal S32x64x768 .f32) (v17 v21 : FVec Ideal S768 .f32) (v27 : FVec Ideal S768x64 .bf16) (v31 : FVec Ideal S64 .f32)
    (i : Fin 32) (c o : Fin 64) (J : Fin 4096) (hJ : J.val = c.val * 64 + o.val) :
    k0_pay1 (F := Ideal) x0 v17 v21 v27 v31 (ix2 i J)
      = Cert.LnSilu.cell (fun k => x0 (ix3 i c k)) (fun k => v17 (ix1 k)) (fun k => v21 (ix1 k)) (fun k => v27 (ix2 k o)) (v31 (ix1 o)) := by
  refine (congrFun (pay_eq x0 v17 v21 v27 v31) (ix2 i J)).trans ?_
  refine (mergeCols_apply _ shapeCasts_S32x64x64_S32x4096 i c o J hJ).trans ?_
  exact congrArg Cert.LnSilu.silu (preBlk_at x0 v17 v21 v27 v31 i c o)

end Cert.KernelIdeal.BodyValue

end
-- ==== Proof.KernelArray.lean ====
/-
  The kernel's side, from blocks to arrays (second half): the [2048, 4096] result of the launch.

  The result array is the [2048, 64, 64] table of normalised-row · weight-row + bias through y · sigmoid y,
  with its last two axes merged into one of length 4096 (column c·64 + o holds entry (c, o)); here the table is
  written over the weight matrix as the launch sees it, [768, 64].  Grid point t writes rows 32·t … 32·t + 31 of
  that array: the body's one stored value at (i, c·64 + o) is the table's entry for row (32·t + i, c) and weight
  column o.  The 64 blocks tile the 2048 rows, so after the launch the array is the merged table everywhere.
-/
import proofs.«102197_j38053410243068_2_alg».proof.Proof.KernelBlocks
import proofs.«102197_j38053410243068_2_alg».proof.Proof.PayloadAt
import proofs.«102197_j38053410243068_2_alg».proof.Proof.Spec

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.KernelIdeal.BodyValue (pay_at)

/-- The last two axes of a [2048, 64, 64] array merge into one of length 4096. -/
theorem hmerge : S2048x64x64.ShapeCasts S2048x4096 := by decide

/-- The table over the weight matrix as the launch sees it ([768, 64]: entry (k, o) pairs with column o). -/
def tableK (X : FVec Ideal S2048x64x768 .f32) (G S : FVec Ideal S768 .f32) (Wt : FVec Ideal S768x64 .bf16)
    (B : FVec Ideal S64 .f32) : FVec Ideal S2048x64x64 .f32 :=
  fun i => Cert.LnSilu.cell (fun k => X (ix3 (i 0) (i 1) k)) (fun k => G (ix1 k)) (fun k => S (ix1 k))
    (fun k => Wt (ix2 k (i 2))) (B (ix1 (i 2)))

/-- The launch's result: that table with its last two axes merged. -/
def slab (X : FVec Ideal S2048x64x768 .f32) (G S : FVec Ideal S768 .f32) (Wt : FVec Ideal S768x64 .bf16)
    (B : FVec Ideal S64 .f32) : FVec Ideal S2048x4096 .f32 :=
  shapeCast S2048x4096 (tableK X G S Wt B) hmerge

/-- One grid point: if the loaded blocks are rows 32·q … of the big array and the other arrays whole, the stored
    value at (i, jj) is the merged table at (32·q + i, jj). -/
theorem point_eq (X : FVec Ideal S2048x64x768 .f32) (G S : FVec Ideal S768 .f32) (Wt : FVec Ideal S768x64 .bf16)
    (B : FVec Ideal S64 .f32)
    (x0 : FVec Ideal S32x64x768 .f32) (v17 v21 : FVec Ideal S768 .f32) (v27 : FVec Ideal S768x64 .bf16) (v31 : FVec Ideal S64 .f32)
    (q : ℕ)
    (h0 : ∀ (i : Fin 32) (c : Fin 64) (k : Fin 768) (R : Fin 2048), R.val = q * 32 + i.val → x0 (ix3 i c k) = X (ix3 R c k))
    (h1 : ∀ k : Fin 768, v17 (ix1 k) = G (ix1 k)) (h2 : ∀ k : Fin 768, v21 (ix1 k) = S (ix1 k))
    (h3 : ∀ (k : Fin 768) (o : Fin 64), v27 (ix2 k o) = Wt (ix2 k o)) (h4 : ∀ o : Fin 64, v31 (ix1 o) = B (ix1 o))
    (j : S32x4096.Idx) (J : S2048x4096.Idx) (hJ0 : (J 0).val = q * 32 + (j 0).val) (hJ1 : (J 1).val = (j 1).val) :
    k0_pay1 (F := Ideal) x0 v17 v21 v27 v31 j = slab X G S Wt B J := by
  obtain ⟨i, jj, rfl⟩ : ∃ (i : Fin 32) (jj : Fin 4096), j = ix2 i jj := ⟨j 0, j 1, eq_ix2 j⟩
  obtain ⟨R, JJ, rfl⟩ : ∃ (R : Fin 2048) (JJ : Fin 4096), J = ix2 R JJ := ⟨J 0, J 1, eq_ix2 J⟩
  have hR : R.val = q * 32 + i.val := hJ0
  have hJJ : JJ.val = jj.val := hJ1
  have hjj : jj.val < 4096 := jj.isLt
  have hc : jj.val / 64 < 64 := by omega
  have ho : jj.val % 64 < 64 := Nat.mod_lt _ (by decide)
  refine (pay_at x0 v17 v21 v27 v31 i ⟨jj.val / 64, hc⟩ ⟨jj.val % 64, ho⟩ jj
    (by show jj.val = jj.val / 64 * 64 + jj.val % 64; omega)).trans ?_
  unfold slab
  refine Eq.trans ?_ (shapeCast_apply (tableK X G S Wt B) hmerge (ix2 R JJ) (ix3 R ⟨jj.val / 64, hc⟩ ⟨jj.val % 64, ho⟩) (by
    rw [Shape.rowMajor_val_three, Shape.rowMajor_val_two]
    show (R.val * 64 + jj.val / 64) * 64 + jj.val % 64 = R.val * 4096 + JJ.val
    omega)).symm
  show _ = Cert.LnSilu.cell (fun k => X (ix3 R ⟨jj.val / 64, hc⟩ k)) (fun k => G (ix1 k)) (fun k => S (ix1 k))
    (fun k => Wt (ix2 k ⟨jj.val % 64, ho⟩)) (B (ix1 ⟨jj.val % 64, ho⟩))
  rw [h4, funext (fun k => h0 i ⟨jj.val / 64, hc⟩ k R hR), funext h1, funext h2, funext (fun k => h3 k ⟨jj.val % 64, ho⟩)]

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The launch's result as a function of the arrays the launch finds. -/
abbrev result (c : Dev nD) : FVec Ideal S2048x4096 .f32 :=
  slab (V m c main_arg0) (V m c main_arg1) (V m c main_arg2) (V m c main_v1) (V m c main_arg4)

/-- What grid point `t` writes back is block `t` (rows 32·t … 32·t + 31) of the merged table. -/
theorem flushed5_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz2]
  simp only [View.ld_unit_zero (S := S32x64x768) hz3, View.ld_unit_zero (S := S768) hz1,
    View.ld_unit_zero (S := S768x64) hz2, View.ld_unit_zero (S := S64) hz1]
  obtain ⟨-, -, -, -, -, -, -, -, e8, e9⟩ := idx_facts t
  funext j
  show k0_pay1 (F := Ideal) (iblk m c 0 t) (iblk m c 1 t) (iblk m c 2 t) (iblk m c 3 t) (iblk m c 4 t) j
    = result m c (((cfg0.win 5).blk t).view.emb j)
  refine point_eq (V m c main_arg0) (V m c main_arg1) (V m c main_arg2) (V m c main_v1) (V m c main_arg4)
    (iblk m c 0 t) (iblk m c 1 t) (iblk m c 2 t) (iblk m c 3 t) (iblk m c 4 t) t.val
    (fun i cc k R hR => blk0_apply m c t (ix3 i cc k) (ix3 R cc k) hR rfl rfl)
    (fun k => blk1_apply m c t (ix1 k)) (fun k => blk2_apply m c t (ix1 k))
    (fun k o => blk3_apply m c t (ix2 k o)) (fun o => blk4_apply m c t (ix1 o))
    j (((cfg0.win 5).blk t).view.emb j) ?_ ?_
  · show win0_5.index t (0 : Fin 2) * 32 + 1 * (j 0).val = t.val * 32 + (j 0).val
    omega
  · show win0_5.index t (1 : Fin 2) * 4096 + 1 * (j 1).val = (j 1).val
    omega

/-- An index of the result is in point `t`'s block iff each coordinate is in the block's range on its axis. -/
theorem mem_blk5 (t : Fin cfg0.N) (i : S2048x4096.Idx) :
    i ∈ ((cfg0.win 5).blk t).view.set ↔ ∀ a : Fin 2, win0_5.index t a * S32x4096.size a ≤ (i a).val
      ∧ (i a).val < win0_5.index t a * S32x4096.size a + S32x4096.size a := by
  show i ∈ ((View.whole main_v2).slice (win0_5.rect t)).set ↔ _
  rw [View.set_slice_whole, Rect.mem_set_unit]
  exact Iff.rfl

/-- Every row r lies in the block of the point r / 32, and every point writes its block back. -/
theorem cover5 (i : S2048x4096.Idx) :
    ∃ t : Fin cfg0.N, (cfg0.win 5).flush t = true ∧ i ∈ ((cfg0.win 5).blk t).view.set := by
  have hi0 : (i 0).val < 2048 := (i 0).isLt
  have hi1 : (i 1).val < 4096 := (i 1).isLt
  have hN : grid0.N = 64 := N_0
  obtain ⟨t, ht⟩ : ∃ t : Fin cfg0.N, t.val = (i 0).val / 32 :=
    ⟨⟨(i 0).val / 32, by show (i 0).val / 32 < grid0.N; omega⟩, rfl⟩
  obtain ⟨-, -, -, -, -, -, -, -, e8, e9⟩ := idx_facts t
  refine ⟨t, flush0_5 t, ?_⟩
  rw [mem_blk5]
  intro a
  match a with
  | ⟨0, _⟩ =>
    show win0_5.index t (0 : Fin 2) * 32 ≤ (i 0).val ∧ (i 0).val < win0_5.index t (0 : Fin 2) * 32 + 32
    omega
  | ⟨1, _⟩ =>
    show win0_5.index t (1 : Fin 2) * 4096 ≤ (i 1).val ∧ (i 1).val < win0_5.index t (1 : Fin 2) * 4096 + 4096
    omega

/-- The result array after the launch is the merged table of the arrays the launch found. -/
theorem final5 (c : Dev nD) : (dats m 0 c).arrAt 5 cfg0.N = result m c :=
  (dats m 0 c).arrAt_eq_of_cover 5 (result m c) (fun t _ => flushed5_eq m c t) cover5

end Cert.KernelIdeal.ArrayValue

end
-- ==== Proof.Unpatch.lean ====
/-
  The layout steps both programs end with, as one function that is never opened.

  A [2048, 64, 64] table is viewed as [2048, 8, 8, 4, 4, 4], its axes are permuted to [2048, 4, 8, 4, 8, 4]
  (patch rows and columns interleaved with the positions inside a patch), and the result is viewed as
  [2048, 4, 32, 32].  Both programs apply exactly these three steps to their table, so the certificate only
  needs the tables equal; the shape facts the steps cite are arguments, each program supplying its own.
-/
import Idealize.ShloMosaic.PureOps
import Idealize.ShloMosaic.PureOps.Ideal

noncomputable section

namespace Cert.LnSilu

open Idealize.ShloMosaic

/-- View as patches, interleave, view as images. -/
def unpatch (y : (⟨3, ![2048, 64, 64]⟩ : Shape).Idx → EReal)
    (h1 : (⟨3, ![2048, 64, 64]⟩ : Shape).ShapeCasts ⟨6, ![2048, 8, 8, 4, 4, 4]⟩)
    (h2 : (⟨6, ![2048, 8, 8, 4, 4, 4]⟩ : Shape).Transposes [0, 3, 1, 4, 2, 5] ⟨6, ![2048, 4, 8, 4, 8, 4]⟩)
    (h3 : (⟨6, ![2048, 4, 8, 4, 8, 4]⟩ : Shape).ShapeCasts ⟨4, ![2048, 4, 32, 32]⟩) :
    (⟨4, ![2048, 4, 32, 32]⟩ : Shape).Idx → EReal :=
  shapeCast ⟨4, ![2048, 4, 32, 32]⟩
    (transpose ⟨6, ![2048, 4, 8, 4, 8, 4]⟩ [0, 3, 1, 4, 2, 5] (shapeCast ⟨6, ![2048, 8, 8, 4, 4, 4]⟩ y h1) h2) h3

end Cert.LnSilu

end
-- ==== Proof.KernelRun.lean ====
/-
  The kernel's side, the run: what the program's result array holds when it ends.

  After the launch the program views the [2048, 4096] result as [2048, 64, 64] — which undoes the merge of the
  table's last two axes — and then applies the three layout steps it shares with the reference.  The table over
  the weight matrix as the launch sees it is the specification's table of the five arguments: the launch finds
  four of them untouched, and the fifth transposed, entry (k, o) being W (o, k).
-/
import proofs.«102197_j38053410243068_2_alg».proof.Proof.KernelArray
import proofs.«102197_j38053410243068_2_alg».proof.Proof.Unpatch

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The specification's table of the five arguments as launched. -/
abbrev argTable (c : Dev nD) : FVec Ideal S2048x64x64 .f32 :=
  Cert.LnSilu.table (m ((c : Thread nD τ).loc main_arg0)) (m ((c : Thread nD τ).loc main_arg1))
    (m ((c : Thread nD τ).loc main_arg2)) (m ((c : Thread nD τ).loc main_arg3)) (m ((c : Thread nD τ).loc main_arg4))

/-- The table over the arrays the launch finds is the table of the arguments: four arrays are the arguments
    themselves, and the weight matrix is the argument transposed, which the table reads at swapped coordinates. -/
theorem tableK_eq (c : Dev nD) :
    tableK (V m c main_arg0) (V m c main_arg1) (V m c main_arg2) (V m c main_v1) (V m c main_arg4) = argTable m c := by
  funext i
  show Cert.LnSilu.cell (fun k => V m c main_arg0 (ix3 (i 0) (i 1) k)) (fun k => V m c main_arg1 (ix1 k))
      (fun k => V m c main_arg2 (ix1 k)) (fun k => V m c main_v1 (ix2 k (i 2))) (V m c main_arg4 (ix1 (i 2)))
    = Cert.LnSilu.cell (fun k => m ((c : Thread nD τ).loc main_arg0) (ix3 (i 0) (i 1) k))
      (fun k => m ((c : Thread nD τ).loc main_arg1) (ix1 k)) (fun k => m ((c : Thread nD τ).loc main_arg2) (ix1 k))
      (fun k => m ((c : Thread nD τ).loc main_arg3) (ix2 (i 2) k)) (m ((c : Thread nD τ).loc main_arg4) (ix1 (i 2)))
  rw [V_main_arg0, V_main_arg1, V_main_arg2, V_main_arg4, funext (fun k => wt_apply m c k (i 2))]

/-- The program's result: the shared layout steps applied to the table of the arguments. -/
theorem result_eq (c : Dev nD) :
    Pipeline.afterTail₀ cfgs (dats m) 0 (V0 m) [hostOps1] c main_v6
      = Cert.LnSilu.unpatch (argTable m c)
          shapeCasts_S2048x64x64_S2048x8x8x4x4x4 transposes_S2048x8x8x4x4x4_S2048x4x8x4x8x4_0_3_1_4_2_5
          shapeCasts_S2048x4x8x4x8x4_S2048x4x32x32 := by
  have hw : Pipeline.withArrays (cfgs 0).spec c (V0 m c) (fun w => (dats m 0 c).arrAt w (cfgs 0).N) (Proc.devRef .tc main_v2)
      = result m c :=
    (Pipeline.withArrays_arr spec0 launch0.win.arr_inj c _ _ 5).trans (final5 m c)
  unfold Pipeline.afterTail₀
  show StableHlo.after hostOps1 _ (Proc.devRef .tc main_v6) = _
  after_results
  rw [hw]
  show Cert.LnSilu.unpatch (shapeCast S2048x64x64 (result m c) shapeCasts_S2048x4096_S2048x64x64)
      shapeCasts_S2048x64x64_S2048x8x8x4x4x4 transposes_S2048x8x8x4x4x4_S2048x4x8x4x8x4_0_3_1_4_2_5
      shapeCasts_S2048x4x8x4x8x4_S2048x4x32x32 = _
  refine congrArg (fun y => Cert.LnSilu.unpatch y shapeCasts_S2048x64x64_S2048x8x8x4x4x4
    transposes_S2048x8x8x4x4x4_S2048x4x8x4x8x4_0_3_1_4_2_5 shapeCasts_S2048x4x8x4x8x4_S2048x4x32x32) ?_
  refine Eq.trans ?_ (tableK_eq m c)
  exact shapeCast_shapeCast _ hmerge shapeCasts_S2048x4096_S2048x64x64

/-- Every weakly fair execution of the program terminates with its result at the shared layout steps of the
    table of the arguments, and the arguments unchanged. -/
theorem run : θ_run defs (onTc (τ := τ) (main (F := Ideal))) ⟨m, fun _ => 0, ρ⟩ (fun r => ∀ c : Dev nD,
      r.2.mem ((c.tc : Thread nD τ).loc main_v6) = Cert.LnSilu.unpatch (argTable m c)
          shapeCasts_S2048x64x64_S2048x8x8x4x4x4 transposes_S2048x8x8x4x4x4_S2048x4x8x4x8x4_0_3_1_4_2_5
          shapeCasts_S2048x4x8x4x8x4_S2048x4x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.ArrayValue

end
-- ==== Proof.RefTable.lean ====
/-
  The reference program, read one entry at a time, is the table of the specification.

  Fix a row (r, c) of the input, 768 numbers.  The program sums the row and divides by 768 (its mean), subtracts
  the mean from every entry (the centred row), sums the squares of the centred row and divides by 768 again,
  adds the guard, takes the inverse square root (the spread), and forms centred · spread · gain + offset (the
  normalised row).  Entry (r, c, o) of its product stage is the sum over k of the normalised row at k times the
  weight at (o, k); the bias at o is added, and the result y becomes y · (1 / (1 + e^(-y))).  Each lemma below
  reads one of these stages at an index built from literal coordinates and names the specification's function
  it equals; the sums start from the word of zero, which adds nothing.
-/
import proofs.«102197_j38053410243068_2_alg».proof.Proof.Gen.ReferenceIdeal.Read
import proofs.«102197_j38053410243068_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The mean of row (r, c): stage 3 read at (r, c, 0). -/
theorem stage3_at (x0 : (⟨S2048x64x768, .f32⟩ : BufTy).Contents (Elt Ideal)) (r : Fin 2048) (c : Fin 64) (z : Fin 1) :
    val_main_v3 (F := Ideal) x0 (ix3 r c z) = Cert.LnSilu.rowMean (fun k => x0 (ix3 r c k)) := by
  rw [val_main_v3_apply, val_main_v1_apply, val_main_v0_apply, val_main_v2_apply, val_main_cst_0_apply, val_main_cst_apply]
  simp only [Ideal.hostDivf_def, Ideal.ofBits_def, Ideal.ofBits_zero_f32, zero_add]
  unfold Cert.LnSilu.rowMean Cert.LnSilu.width
  refine congrArg (fun s => Ideal.div s _) (Finset.sum_congr rfl fun k _ => congrArg x0 ?_)
  exact funext fun a => Fin.ext (by match a with | ⟨0, _⟩ => rfl | ⟨1, _⟩ => rfl | ⟨2, _⟩ => rfl)

/-- The centred row: stage 5 read at (r, c, k) is the entry minus the row's mean. -/
theorem stage5_at (x0 : (⟨S2048x64x768, .f32⟩ : BufTy).Contents (Elt Ideal)) (r : Fin 2048) (c : Fin 64) (k : Fin 768) :
    val_main_v5 (F := Ideal) x0 (ix3 r c k) = Cert.LnSilu.centred (fun k => x0 (ix3 r c k)) k := by
  rw [val_main_v5_apply, val_main_v4_apply]
  have e : idx_main_v4 (ix3 r c k) = ix3 r c (0 : Fin 1) :=
    funext fun a => Fin.ext (by match a with | ⟨0, _⟩ => rfl | ⟨1, _⟩ => rfl | ⟨2, _⟩ => rfl)
  rw [e, stage3_at]
  rfl

/-- The same centred row, written a second time by the program: stage 12 read at (r, c, k). -/
theorem stage12_at (x0 : (⟨S2048x64x768, .f32⟩ : BufTy).Contents (Elt Ideal)) (r : Fin 2048) (c : Fin 64) (k : Fin 768) :
    val_main_v12 (F := Ideal) x0 (ix3 r c k) = Cert.LnSilu.centred (fun k => x0 (ix3 r c k)) k := by
  rw [val_main_v12_apply, val_main_v11_apply]
  have e : idx_main_v11 (ix3 r c k) = ix3 r c (0 : Fin 1) :=
    funext fun a => Fin.ext (by match a with | ⟨0, _⟩ => rfl | ⟨1, _⟩ => rfl | ⟨2, _⟩ => rfl)
  rw [e, stage3_at]
  rfl

/-- The mean of the squared centred row: stage 10 read at (r, c, 0). -/
theorem stage10_at (x0 : (⟨S2048x64x768, .f32⟩ : BufTy).Contents (Elt Ideal)) (r : Fin 2048) (c : Fin 64) (z : Fin 1) :
    val_main_v10 (F := Ideal) x0 (ix3 r c z)
      = Cert.LnSilu.rowMean (fun k => Cert.LnSilu.centred (fun k => x0 (ix3 r c k)) k * Cert.LnSilu.centred (fun k => x0 (ix3 r c k)) k) := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  unfold Cert.LnSilu.rowMean Cert.LnSilu.width
  refine congrArg (fun s => Ideal.div s _) (Finset.sum_congr rfl fun k _ => ?_)
  have e : idx_main_v7 (idx_main_v8 (ix3 r c z)) k = ix3 r c k :=
    funext fun a => Fin.ext (by match a with | ⟨0, _⟩ => rfl | ⟨1, _⟩ => rfl | ⟨2, _⟩ => rfl)
  rw [e, val_main_v6_apply, stage5_at]
  rfl

/-- The inverse square root of the guarded variance: stage 15 read at (r, c, 0). -/
theorem stage15_at (x0 : (⟨S2048x64x768, .f32⟩ : BufTy).Contents (Elt Ideal)) (r : Fin 2048) (c : Fin 64) (z : Fin 1) :
    val_main_v15 (F := Ideal) x0 (ix3 r c z) = Cert.LnSilu.spread (fun k => x0 (ix3 r c k)) := by
  rw [val_main_v15_apply, val_main_v14_apply, stage10_at, val_main_v13_apply, val_main_cst_3_apply]
  rfl

/-- The normalised row: stage 23 read at (r, c, k). -/
theorem stage23_at (x0 : (⟨S2048x64x768, .f32⟩ : BufTy).Contents (Elt Ideal)) (x1 x2 : (⟨S768, .f32⟩ : BufTy).Contents (Elt Ideal))
    (r : Fin 2048) (c : Fin 64) (k : Fin 768) :
    val_main_v23 (F := Ideal) x0 x1 x2 (ix3 r c k)
      = Cert.LnSilu.normed (fun k => x0 (ix3 r c k)) (fun k => x1 (ix1 k)) (fun k => x2 (ix1 k)) k := by
  rw [val_main_v23_apply, val_main_v20_apply, val_main_v17_apply, stage12_at, val_main_v16_apply,
    val_main_v19_apply, val_main_v18_apply, val_main_v22_apply, val_main_v21_apply]
  have e16 : idx_main_v16 (ix3 r c k) = ix3 r c (0 : Fin 1) :=
    funext fun a => Fin.ext (by match a with | ⟨0, _⟩ => rfl | ⟨1, _⟩ => rfl | ⟨2, _⟩ => rfl)
  have e18 : idx_main_v18 (idx_main_v19 (ix3 r c k)) = ix1 k :=
    funext fun a => Fin.ext (by match a with | ⟨0, _⟩ => rfl)
  have e21 : idx_main_v21 (idx_main_v22 (ix3 r c k)) = ix1 k :=
    funext fun a => Fin.ext (by match a with | ⟨0, _⟩ => rfl)
  rw [e16, e18, e21, stage15_at]
  rfl

/-- The sum of products against weight row o, plus the bias: stage 27 read at (r, c, o). -/
theorem stage27_at (x0 : (⟨S2048x64x768, .f32⟩ : BufTy).Contents (Elt Ideal)) (x1 x2 : (⟨S768, .f32⟩ : BufTy).Contents (Elt Ideal))
    (x3 : (⟨S64x768, .f32⟩ : BufTy).Contents (Elt Ideal)) (x4 : (⟨S64, .f32⟩ : BufTy).Contents (Elt Ideal))
    (r : Fin 2048) (c o : Fin 64) :
    val_main_v27 (F := Ideal) x0 x1 x2 x3 x4 (ix3 r c o)
      = (∑ k, Cert.LnSilu.normed (fun k => x0 (ix3 r c k)) (fun k => x1 (ix1 k)) (fun k => x2 (ix1 k)) k * x3 (ix2 o k))
          + x4 (ix1 o) := by
  rw [val_main_v27_apply, val_main_v24_apply, val_main_v26_apply, val_main_v25_apply]
  have e25 : idx_main_v25 (idx_main_v26 (ix3 r c o)) = ix1 o :=
    funext fun a => Fin.ext (by match a with | ⟨0, _⟩ => rfl)
  rw [e25]
  simp only [Ideal.addf_def]
  refine congrArg (· + _) (Finset.sum_congr rfl fun k _ => ?_)
  have el : lidx_main_v24 (ix3 r c o) k = ix3 r c k :=
    funext fun a => Fin.ext (by match a with | ⟨0, _⟩ => rfl | ⟨1, _⟩ => rfl | ⟨2, _⟩ => rfl)
  have er : ridx_main_v24 (ix3 r c o) k = ix2 o k :=
    funext fun a => Fin.ext (by match a with | ⟨0, _⟩ => rfl | ⟨1, _⟩ => rfl)
  rw [el, er, stage23_at]

/-- Stage 34, the last before the layout steps both programs share, is the table. -/
theorem stage34_eq_table (x0 : (⟨S2048x64x768, .f32⟩ : BufTy).Contents (Elt Ideal)) (x1 x2 : (⟨S768, .f32⟩ : BufTy).Contents (Elt Ideal))
    (x3 : (⟨S64x768, .f32⟩ : BufTy).Contents (Elt Ideal)) (x4 : (⟨S64, .f32⟩ : BufTy).Contents (Elt Ideal)) :
    val_main_v34 (F := Ideal) x0 x1 x2 x3 x4 = Cert.LnSilu.table x0 x1 x2 x3 x4 := by
  funext i
  obtain ⟨r, c, o, rfl⟩ : ∃ (r : Fin 2048) (c o : Fin 64), i = ix3 r c o := ⟨i 0, i 1, i 2, eq_ix3 i⟩
  rw [Cert.LnSilu.table_ix3, val_main_v34_apply, val_main_v33_apply, val_main_v32_apply, val_main_cst_5_apply,
    val_main_v31_apply, val_main_v30_apply, val_main_cst_4_apply, val_main_v29_apply, val_main_v28_apply, stage27_at]
  simp only [Ideal.mulf_def, Ideal.hostDivf_def, Ideal.addf_def, Ideal.hostUnary_exp_def, Ideal.hostNegf_def, Ideal.negf_def,
    Ideal.ofBits_def, Cert.LnSilu.ofBits_one, Cert.LnSilu.logistic_spelt]
  rfl

end Cert.ReferenceIdeal.RefValue

end
-- ==== Proof.lean ====
/-
  A layer-normalised linear map with y · sigmoid y, as a tiled kernel and as plain array code: one function.

  Both programs take x [2048, 64, 768], a gain and an offset vector of length 768, weights W [64, 768] and a bias
  of length 64.  Each row of 768 entries of x is normalised (mean subtracted, divided by the square root of the
  guarded variance, times the gain, plus the offset), paired with every row of W by a sum of 768 products, shifted
  by the bias, and passed through y ↦ y · sigmoid y; the [2048, 64, 64] table that results is re-laid as
  [2048, 4, 32, 32] by three layout steps.

  The kernel walks the 2048 leading indices in 64 blocks of 32, multiplies against W transposed on the host
  beforehand, and writes the table with its last two axes merged; the reference computes the table in one piece.
  Over the extended reals the two agree entry by entry with no side condition: a change of float format is the
  identity, the sigmoid is one function however it is spelt, and the only difference left is the order in which
  sums and products are grouped.  The table is stated once (Proof/Spec.lean); the reference's last stage before
  the layout steps is that table (Proof/RefTable.lean); the kernel's stored value at an entry is the table's cell
  (Proof/PayloadAt.lean), its 64 blocks tile the result (Proof/KernelBlocks.lean, Proof/KernelArray.lean), and the
  program's result is the layout steps of the table (Proof/KernelRun.lean).  The layout steps are shared and never
  opened (Proof/Unpatch.lean).
-/
import proofs.«102197_j38053410243068_2_alg».proof.Defs
import proofs.«102197_j38053410243068_2_alg».proof.Proof.Gen.Kernel
import proofs.«102197_j38053410243068_2_alg».proof.Proof.Gen.Kernel.Skeleton
import proofs.«102197_j38053410243068_2_alg».proof.Proof.Gen.Kernel.Launch
import proofs.«102197_j38053410243068_2_alg».proof.Proof.Gen.Kernel.Points
import proofs.«102197_j38053410243068_2_alg».proof.Proof.Gen.Kernel.Frame
import proofs.«102197_j38053410243068_2_alg».proof.Proof.Gen.KernelIdeal
import proofs.«102197_j38053410243068_2_alg».proof.Proof.Gen.KernelIdeal.Skeleton
import proofs.«102197_j38053410243068_2_alg».proof.Proof.Gen.KernelIdeal.Launch
import proofs.«102197_j38053410243068_2_alg».proof.Proof.Gen.KernelIdeal.Points
import proofs.«102197_j38053410243068_2_alg».proof.Proof.Gen.KernelIdeal.Frame
import proofs.«102197_j38053410243068_2_alg».proof.Proof.Gen.ReferenceIdeal
import proofs.«102197_j38053410243068_2_alg».proof.Proof.Gen.ReferenceIdeal.Run
import proofs.«102197_j38053410243068_2_alg».proof.Proof.Gen.ReferenceIdeal.Read
import proofs.«102197_j38053410243068_2_alg».proof.Proof.Gen.Pre_finite_inputs
import proofs.«102197_j38053410243068_2_alg».proof.Proof.KernelRun
import proofs.«102197_j38053410243068_2_alg».proof.Proof.RefTable
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- And the reference: its run, with what the result holds left out. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layout steps of one table. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq]
  show Cert.LnSilu.unpatch
      (Cert.ReferenceIdeal.Read.val_main_v34 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)))
      Cert.ReferenceIdeal.Facts₀.shapeCasts_S2048x64x64_S2048x8x8x4x4x4
      Cert.ReferenceIdeal.Facts₀.transposes_S2048x8x8x4x4x4_S2048x4x8x4x8x4_0_3_1_4_2_5
      Cert.ReferenceIdeal.Facts₀.shapeCasts_S2048x4x8x4x8x4_S2048x4x32x32 = _
  rw [Cert.ReferenceIdeal.RefValue.stage34_eq_table, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
